-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 42
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.GinLayer.lean ====
/-
  One layer of a graph-isomorphism network on the extended reals, read one output entry at a time.

  A layer takes the node features `x` (one row per node), the array `a` whose row `p` is the sum of the rows of
  node `p`'s in-neighbours, and two affine maps (W₁, b₁), (W₂, b₂). Row `p` of its output depends on row `p`
  of `x` and of `a` alone:
      hidden k = max (∑ j, (x p j + a p j) · W₁ j k + b₁ k) 0
      out n    = ∑ k, hidden k · W₂ k n + b₂ n
  and the network's first layer clamps `out` at zero once more. No algebraic law is used anywhere: a program
  that treats the rows in blocks and one that treats them all at once compute these very sums, term by term,
  so the two agree on every extended real, infinite ones included.
-/
import Idealize.ShloMosaic.PureOps.Ideal
import Idealize.ShloMosaic.Lib.ValueIdx

noncomputable section

namespace Cert.GinLayer

open Idealize.ShloMosaic Idealize.ShloMosaic.ValueIdx

variable {M N din dhid dout : Nat}

/-- The rectifier's threshold: the value of the all-zero f32 word. Both programs carry this same word, so it is
    never evaluated. -/
abbrev thr : Ideal .f32 := Ideal.ofBits .f32 0x00000000#32

/-- Entry `k` of the hidden row: the rectified first affine map of the row `xr + ar`. -/
def hidden (xr ar : Fin din → Ideal .f32) (W1 : FVec Ideal ⟨2, ![din, dhid]⟩ .f32) (b1 : FVec Ideal ⟨1, ![dhid]⟩ .f32)
    (k : Fin dhid) : Ideal .f32 :=
  max ((∑ j : Fin din, (xr j + ar j) * W1 (ix2 j k)) + b1 (ix1 k)) thr

/-- Entry `n` of the output row: the second affine map of the hidden row. -/
def outRow (xr ar : Fin din → Ideal .f32) (W1 : FVec Ideal ⟨2, ![din, dhid]⟩ .f32) (b1 : FVec Ideal ⟨1, ![dhid]⟩ .f32)
    (W2 : FVec Ideal ⟨2, ![dhid, dout]⟩ .f32) (b2 : FVec Ideal ⟨1, ![dout]⟩ .f32) (n : Fin dout) : Ideal .f32 :=
  (∑ k : Fin dhid, hidden xr ar W1 b1 k * W2 (ix2 k n)) + b2 (ix1 n)

/-- Entry `(p, n)` of the layer's output, from row `p` of the features and of the neighbour sums. -/
def linAt (x a : FVec Ideal ⟨2, ![N, din]⟩ .f32) (W1 : FVec Ideal ⟨2, ![din, dhid]⟩ .f32) (b1 : FVec Ideal ⟨1, ![dhid]⟩ .f32)
    (W2 : FVec Ideal ⟨2, ![dhid, dout]⟩ .f32) (b2 : FVec Ideal ⟨1, ![dout]⟩ .f32) (p : Fin N) (n : Fin dout) : Ideal .f32 :=
  outRow (fun j => x (ix2 p j)) (fun j => a (ix2 p j)) W1 b1 W2 b2 n

/-- The layer with no closing rectifier, as one array (the network's last layer). -/
def lin (x a : FVec Ideal ⟨2, ![N, din]⟩ .f32) (W1 : FVec Ideal ⟨2, ![din, dhid]⟩ .f32) (b1 : FVec Ideal ⟨1, ![dhid]⟩ .f32)
    (W2 : FVec Ideal ⟨2, ![dhid, dout]⟩ .f32) (b2 : FVec Ideal ⟨1, ![dout]⟩ .f32) : FVec Ideal ⟨2, ![N, dout]⟩ .f32 :=
  fun i => linAt x a W1 b1 W2 b2 (i 0) (i 1)

/-- The layer followed by the rectifier, as one array (the network's first layer). -/
def rect (x a : FVec Ideal ⟨2, ![N, din]⟩ .f32) (W1 : FVec Ideal ⟨2, ![din, dhid]⟩ .f32) (b1 : FVec Ideal ⟨1, ![dhid]⟩ .f32)
    (W2 : FVec Ideal ⟨2, ![dhid, dout]⟩ .f32) (b2 : FVec Ideal ⟨1, ![dout]⟩ .f32) : FVec Ideal ⟨2, ![N, dout]⟩ .f32 :=
  fun i => max (linAt x a W1 b1 W2 b2 (i 0) (i 1)) thr

/-- An output entry depends on one row of the features and of the neighbour sums only: two pairs of arrays
    (of any heights) that agree on a row give the same entry there. -/
theorem linAt_congr {x a : FVec Ideal ⟨2, ![M, din]⟩ .f32} {x' a' : FVec Ideal ⟨2, ![N, din]⟩ .f32}
    {W1 W1' : FVec Ideal ⟨2, ![din, dhid]⟩ .f32} {b1 b1' : FVec Ideal ⟨1, ![dhid]⟩ .f32}
    {W2 W2' : FVec Ideal ⟨2, ![dhid, dout]⟩ .f32} {b2 b2' : FVec Ideal ⟨1, ![dout]⟩ .f32}
    {p : Fin M} {p' : Fin N} {n n' : Fin dout}
    (hx : ∀ j, x (ix2 p j) = x' (ix2 p' j)) (ha : ∀ j, a (ix2 p j) = a' (ix2 p' j))
    (hW1 : W1 = W1') (hb1 : b1 = b1') (hW2 : W2 = W2') (hb2 : b2 = b2') (hn : n = n') :
    linAt x a W1 b1 W2 b2 p n = linAt x' a' W1' b1' W2' b2' p' n' := by
  subst hW1 hb1 hW2 hb2 hn
  unfold linAt
  rw [show (fun j => x (ix2 p j)) = fun j => x' (ix2 p' j) from funext hx,
    show (fun j => a (ix2 p j)) = fun j => a' (ix2 p' j) from funext ha]

end Cert.GinLayer

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«128245_j71725953843763_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.Body0.lean ====
/-
  What the first layer's kernel body stores, read at an entry on the extended reals.

  The body holds a block of 5000 node rows: it adds the block of features and the block of neighbour sums, casts
  to bf16 (the identity here), multiplies by W₁ into a zero accumulator, adds b₁ along the rows, clamps at zero,
  casts again, multiplies by W₂, adds b₂ and clamps at zero once more. Entry (p, n) of what it stores is therefore
  the rectified layer entry of row p of the two blocks.
-/
import proofs.«128245_j71725953843763_1_alg».proof.Proof.Gen.KernelIdeal.Skeleton
import proofs.«128245_j71725953843763_1_alg».proof.Proof.GinLayer
import proofs.«128245_j71725953843763_1_alg».proof.Proof.LibAffineRows

noncomputable section

namespace Cert.KernelIdeal.GinValue

open Idealize.ShloMosaic Idealize.ShloMosaic.ValueIdx Cert.KernelIdeal Cert.KernelIdeal.Gen Cert.LibAffineRows

/-- Entry (p, n) of the first kernel's stored block: the rectified layer entry of row p of its two input blocks. -/
theorem pay0_apply (x0 x1 : FVec Ideal S5000x64 .f32) (w1 : FVec Ideal S64x128 .f32) (b1 : FVec Ideal S128 .f32)
    (w2 : FVec Ideal S128x128 .f32) (b2 : FVec Ideal S128 .f32) (p : Fin 5000) (n : Fin 128) :
    k0_pay1 (F := Ideal) x0 x1 w1 b1 w2 b2 (ix2 p n) = max (GinLayer.linAt x0 x1 w1 b1 w2 b2 p n) GinLayer.thr := by
  unfold k0_pay1
  refine (rectAffine_apply dot_S5000x128_S128x128_S5000x128_1_0_0_1_n_n_wf _ w2 b2 bitsLt_bf16_f32
    shapeCasts_S128_S1x128 broadcasts_S1x128_S5000x128 p n).trans ?_
  refine congrArg (max · GinLayer.thr) (congrArg (· + b2 (ix1 n)) (Finset.sum_congr rfl fun k _ =>
    congrArg (· * w2 (ix2 k n)) ?_))
  refine (rectAffine_apply dot_S5000x64_S64x128_S5000x128_1_0_0_1_n_n_wf _ w1 b1 bitsLt_bf16_f32
    shapeCasts_S128_S1x128 broadcasts_S1x128_S5000x128 p k).trans ?_
  rw [shapeCast_self]
  rfl

end Cert.KernelIdeal.GinValue

end
-- ==== Proof.Blocks0.lean ====
/-
  The first layer's output array after its kernel has run over all ten blocks of 5000 node rows.

  Grid point t fetches rows [5000·t, 5000·t + 5000) of the features and of the neighbour sums, and the whole of
  W₁, b₁, W₂, b₂; it writes back rows [5000·t, 5000·t + 5000) of the output. An output entry depends on its own row
  of the two inputs only, so what point t writes back is block t of ONE array — the rectified layer of the whole
  inputs — and the ten blocks tile the 50000 rows: the output array ends as that array.
-/
import proofs.«128245_j71725953843763_1_alg».proof.Proof.Gen.KernelIdeal.Frame
import proofs.«128245_j71725953843763_1_alg».proof.Proof.Body0
import Idealize.ShloMosaic.Lib.Pipeline.Value

set_option maxRecDepth 16384

noncomputable section

namespace Cert.KernelIdeal.GinValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The first layer of the whole arrays a region finds: features, neighbour sums, and the four parameters. -/
abbrev layer0 (c : Dev nD) : FVec Ideal S50000x128 .f32 :=
  GinLayer.rect (N := 50000) (din := 64) (dhid := 128) (dout := 128)
    (V c main_arg0) (V c main_v13) (V c main_arg2) (V c main_arg3) (V c main_arg4) (V c main_arg5)

/-- The block index maps over the ten grid points: the two row-blocked inputs and the output sit at block (t, 0),
    the four parameters at block 0. -/
theorem blockIdx0 : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- What grid point t writes back is block t of the first layer of the whole arrays. -/
theorem flushed0_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero origin2]
  simp only [View.ld_unit_zero (S := S5000x64) origin2, View.ld_unit_zero (S := S64x128) origin2,
    View.ld_unit_zero (S := S128) origin1, View.ld_unit_zero (S := S128x128) origin2]
  obtain ⟨e60, e61, e00, e01, e10, e11, e20, e21, e30, e40, e41, e50⟩ := blockIdx0 t
  funext y
  obtain ⟨p, n, rfl⟩ : ∃ (p : Fin 5000) (n : Fin 128), y = ix2 p n := ⟨y 0, y 1, eq_ix2 y⟩
  refine (pay0_apply _ _ _ _ _ _ p n).trans ?_
  show max (GinLayer.linAt (iblk0 V c 0 t) (iblk0 V c 1 t) (iblk0 V c 2 t) (iblk0 V c 3 t) (iblk0 V c 4 t) (iblk0 V c 5 t) p n) GinLayer.thr
    = max (GinLayer.linAt (N := 50000) (V c main_arg0) (V c main_v13) (V c main_arg2) (V c main_arg3) (V c main_arg4) (V c main_arg5)
        ((((cfg0.win 6).blk t).view.emb (ix2 p n)) 0) ((((cfg0.win 6).blk t).view.emb (ix2 p n)) 1)) GinLayer.thr
  refine congrArg (max · GinLayer.thr) (GinLayer.linAt_congr (fun j => ?_) (fun j => ?_) ?_ ?_ ?_ ?_ ?_)
  · show V c main_arg0 (((cfg0.win 0).blk t).view.emb (ix2 p j)) = V c main_arg0 (ix2 ((((cfg0.win 6).blk t).view.emb (ix2 p n)) 0) j)
    refine congrArg (V c main_arg0) (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 64 + 1 * j.val = j.val; omega
  · show V c main_v13 (((cfg0.win 1).blk t).view.emb (ix2 p j)) = V c main_v13 (ix2 ((((cfg0.win 6).blk t).view.emb (ix2 p n)) 0) j)
    refine congrArg (V c main_v13) (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 64 + 1 * j.val = j.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; omega
    | ⟨1, _⟩ => show win0_2.index t (1 : Fin 2) * 128 + 1 * (y 1).val = (y 1).val; omega
  · funext y
    show V c main_arg3 (((cfg0.win 3).blk t).view.emb y) = V c main_arg3 y
    refine congrArg (V c main_arg3) (funext fun a => Fin.ext ?_)
    match a with
    | ⟨0, _⟩ => show win0_3.index t (0 : Fin 1) * 128 + 1 * (y 0).val = (y 0).val; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_arg5 (((cfg0.win 5).blk t).view.emb y) = V c main_arg5 y
    refine congrArg (V c main_arg5) (funext fun a => Fin.ext ?_)
    match a with
    | ⟨0, _⟩ => show win0_5.index t (0 : Fin 1) * 128 + 1 * (y 0).val = (y 0).val; omega
  · exact Fin.ext (show n.val = win0_6.index t (1 : Fin 2) * 128 + 1 * n.val by omega)

/-- An index of the output array is in point t's block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v14).slice (win0_6.rect t)).set ↔ _
  rw [View.set_slice_whole, Rect.mem_set_unit]
  exact Iff.rfl

/-- Every entry of the output array is in some point's block: row r is in the block of point r / 5000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e60, e61, -⟩ := blockIdx0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The first kernel's output array after all ten points: the first layer of the arrays the region found. -/
theorem final0 (c : Dev nD) : (dat0 V c).arrAt 6 cfg0.N = layer0 V c :=
  (dat0 V c).arrAt_eq_of_cover 6 (layer0 V c) (fun t _ => flushed0_eq V c t) cover0

end Cert.KernelIdeal.GinValue

end
-- ==== Proof.Body1.lean ====
/-
  What the second layer's kernel body stores, read at an entry on the extended reals.

  The body holds a block of 5000 rows of the first layer's output and of its neighbour sums: it adds them, casts
  to bf16 (the identity here), multiplies by W₃ into a zero accumulator, adds b₃ along the rows, clamps at zero,
  casts again, multiplies by W₄ and adds b₄. Entry (p, n) of what it stores is the layer entry of row p of the two
  blocks, with no closing rectifier.
-/
import proofs.«128245_j71725953843763_1_alg».proof.Proof.Gen.KernelIdeal.Skeleton
import proofs.«128245_j71725953843763_1_alg».proof.Proof.GinLayer
import proofs.«128245_j71725953843763_1_alg».proof.Proof.LibAffineRows

noncomputable section

namespace Cert.KernelIdeal.GinValue

open Idealize.ShloMosaic Idealize.ShloMosaic.ValueIdx Cert.KernelIdeal Cert.KernelIdeal.Gen Cert.LibAffineRows

/-- Entry (p, n) of the second kernel's stored block: the layer entry of row p of its two input blocks. -/
theorem pay1_apply (x0 x1 : FVec Ideal S5000x128 .f32) (w1 : FVec Ideal S128x128 .f32) (b1 : FVec Ideal S128 .f32)
    (w2 : FVec Ideal S128x64 .f32) (b2 : FVec Ideal S64 .f32) (p : Fin 5000) (n : Fin 64) :
    k1_pay1 (F := Ideal) x0 x1 w1 b1 w2 b2 (ix2 p n) = GinLayer.linAt x0 x1 w1 b1 w2 b2 p n := by
  unfold k1_pay1
  refine (affine_apply dot_S5000x128_S128x64_S5000x64_1_0_0_1_n_n_wf _ w2 b2 bitsLt_bf16_f32
    shapeCasts_S64_S1x64 broadcasts_S1x64_S5000x64 p n).trans ?_
  refine congrArg (· + b2 (ix1 n)) (Finset.sum_congr rfl fun k _ => congrArg (· * w2 (ix2 k n)) ?_)
  refine (rectAffine_apply dot_S5000x128_S128x128_S5000x128_1_0_0_1_n_n_wf _ w1 b1 bitsLt_bf16_f32
    shapeCasts_S128_S1x128 broadcasts_S1x128_S5000x128 p k).trans ?_
  rw [shapeCast_self, shapeCast_self]
  rfl

end Cert.KernelIdeal.GinValue

end
-- ==== Proof.Blocks1.lean ====
/-
  The network's result array after the second layer's kernel has run over all ten blocks of 5000 node rows.

  Grid point t fetches rows [5000·t, 5000·t + 5000) of the first layer's output and of its neighbour sums, and the
  whole of W₃, b₃, W₄, b₄; it writes back rows [5000·t, 5000·t + 5000) of the result. A result entry depends on its
  own row of the two inputs only, so what point t writes back is block t of ONE array — the second layer of the
  whole inputs — and the ten blocks tile the 50000 rows: the result array ends as that array.
-/
import proofs.«128245_j71725953843763_1_alg».proof.Proof.Gen.KernelIdeal.Frame
import proofs.«128245_j71725953843763_1_alg».proof.Proof.Body1
import Idealize.ShloMosaic.Lib.Pipeline.Value

set_option maxRecDepth 16384

noncomputable section

namespace Cert.KernelIdeal.GinValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem originPair : (![0, 0] : Fin 2 → Nat) = fun _ => 0 := funext fun a => by fin_cases a <;> rfl
theorem originOne : (![0] : Fin 1 → Nat) = fun _ => 0 := funext fun a => by fin_cases a; rfl

/-- The second layer of the whole arrays a region finds: the first layer's output, its neighbour sums, and the
    four parameters. -/
abbrev layer1 (c : Dev nD) : FVec Ideal S50000x64 .f32 :=
  GinLayer.lin (N := 50000) (din := 128) (dhid := 128) (dout := 64)
    (V c main_v14) (V c main_v24) (V c main_arg6) (V c main_arg7) (V c main_arg8) (V c main_arg9)

/-- The block index maps over the ten grid points: the two row-blocked inputs and the output sit at block (t, 0),
    the four parameters at block 0. -/
theorem blockIdx1 : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0 :=
  (by decide +kernel : ∀ t : Fin grid1.N, _)

/-- What grid point t writes back is block t of the second layer of the whole arrays. -/
theorem flushed1_eq (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero originPair]
  simp only [View.ld_unit_zero (S := S5000x128) originPair, View.ld_unit_zero (S := S128x128) originPair,
    View.ld_unit_zero (S := S128) originOne, View.ld_unit_zero (S := S128x64) originPair,
    View.ld_unit_zero (S := S64) originOne]
  obtain ⟨e60, e61, e00, e01, e10, e11, e20, e21, e30, e40, e41, e50⟩ := blockIdx1 t
  funext y
  obtain ⟨p, n, rfl⟩ : ∃ (p : Fin 5000) (n : Fin 64), y = ix2 p n := ⟨y 0, y 1, eq_ix2 y⟩
  refine (pay1_apply _ _ _ _ _ _ p n).trans ?_
  show GinLayer.linAt (iblk1 V c 0 t) (iblk1 V c 1 t) (iblk1 V c 2 t) (iblk1 V c 3 t) (iblk1 V c 4 t) (iblk1 V c 5 t) p n
    = GinLayer.linAt (N := 50000) (V c main_v14) (V c main_v24) (V c main_arg6) (V c main_arg7) (V c main_arg8) (V c main_arg9)
        ((((cfg1.win 6).blk t).view.emb (ix2 p n)) 0) ((((cfg1.win 6).blk t).view.emb (ix2 p n)) 1)
  refine GinLayer.linAt_congr (fun j => ?_) (fun j => ?_) ?_ ?_ ?_ ?_ ?_
  · show V c main_v14 (((cfg1.win 0).blk t).view.emb (ix2 p j)) = V c main_v14 (ix2 ((((cfg1.win 6).blk t).view.emb (ix2 p n)) 0) j)
    refine congrArg (V c main_v14) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * j.val = j.val; omega
  · show V c main_v24 (((cfg1.win 1).blk t).view.emb (ix2 p j)) = V c main_v24 (ix2 ((((cfg1.win 6).blk t).view.emb (ix2 p n)) 0) j)
    refine congrArg (V c main_v24) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * j.val = j.val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 1) * 128 + 1 * (y 0).val = (y 0).val; omega
  · funext y
    show V c main_arg8 (((cfg1.win 4).blk t).view.emb y) = V c main_arg8 y
    refine congrArg (V c main_arg8) (funext fun a => Fin.ext ?_)
    match a with
    | ⟨0, _⟩ => show win1_4.index t (0 : Fin 2) * 128 + 1 * (y 0).val = (y 0).val; omega
    | ⟨1, _⟩ => show win1_4.index t (1 : Fin 2) * 64 + 1 * (y 1).val = (y 1).val; omega
  · funext y
    show V c main_arg9 (((cfg1.win 5).blk t).view.emb y) = V c main_arg9 y
    refine congrArg (V c main_arg9) (funext fun a => Fin.ext ?_)
    match a with
    | ⟨0, _⟩ => show win1_5.index t (0 : Fin 1) * 64 + 1 * (y 0).val = (y 0).val; omega
  · exact Fin.ext (show n.val = win1_6.index t (1 : Fin 2) * 64 + 1 * n.val by omega)

/-- An index of the result array is in point t's block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v25).slice (win1_6.rect t)).set ↔ _
  rw [View.set_slice_whole, Rect.mem_set_unit]
  exact Iff.rfl

/-- Every entry of the result array is in some point's block: row r is in the block of point r / 5000. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨e60, e61, -⟩ := blockIdx1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The second kernel's output array after all ten points: the second layer of the arrays the region found. -/
theorem final1 (c : Dev nD) : (dat1 V c).arrAt 6 cfg1.N = layer1 V c :=
  (dat1 V c).arrAt_eq_of_cover 6 (layer1 V c) (fun t _ => flushed1_eq V c t) cover1

end Cert.KernelIdeal.GinValue

end
-- ==== Proof.RefValue.lean ====
/-
  The reference's two layers, read at an entry on the extended reals.

  The reference treats all 50000 node rows at once: it adds the features and their neighbour sums, multiplies by
  W₁, adds b₁ along the rows, clamps at zero, multiplies by W₂, adds b₂ and clamps at zero; it takes the neighbour
  sums of that array and does the same with W₃, b₃, W₄, b₄ without the last clamp. Read at entry (p, n), each stage
  is the layer entry of row p. The neighbour sums (a row gather at the edges' sources, scatter-added at their
  targets) are carried as one function of the array they are taken of and are never opened.
-/
import proofs.«128245_j71725953843763_1_alg».proof.Proof.Gen.ReferenceIdeal.Read
import proofs.«128245_j71725953843763_1_alg».proof.Proof.GinLayer

noncomputable section

namespace Cert.ReferenceIdeal.GinValue

open Idealize.ShloMosaic Idealize.ShloMosaic.ValueIdx Cert.ReferenceIdeal Cert.ReferenceIdeal.Read

/-! ## Which operand entries an output entry reads -/

theorem lhsFirst (p : Fin 50000) (k : Fin 128) (j : Fin 64) : lidx_main_v15 (ix2 p k) j = ix2 p j :=
  funext fun a => Fin.ext (by match a with | ⟨0, _⟩ => rfl | ⟨1, _⟩ => rfl)

theorem rhsFirst (p : Fin 50000) (k : Fin 128) (j : Fin 64) : ridx_main_v15 (ix2 p k) j = ix2 j k :=
  funext fun a => Fin.ext (by match a with | ⟨0, _⟩ => rfl | ⟨1, _⟩ => rfl)

theorem biasFirst (p : Fin 50000) (k : Fin 128) : idx_main_v16 (idx_main_v17 (ix2 p k)) = ix1 k :=
  funext fun a => Fin.ext (by match a with | ⟨0, _⟩ => rfl)

theorem lhsSecond (p : Fin 50000) (n : Fin 128) (k : Fin 128) : lidx_main_v20 (ix2 p n) k = ix2 p k :=
  funext fun a => Fin.ext (by match a with | ⟨0, _⟩ => rfl | ⟨1, _⟩ => rfl)

theorem rhsSecond (p : Fin 50000) (n : Fin 128) (k : Fin 128) : ridx_main_v20 (ix2 p n) k = ix2 k n :=
  funext fun a => Fin.ext (by match a with | ⟨0, _⟩ => rfl | ⟨1, _⟩ => rfl)

theorem biasSecond (p : Fin 50000) (n : Fin 128) : idx_main_v21 (idx_main_v22 (ix2 p n)) = ix1 n :=
  funext fun a => Fin.ext (by match a with | ⟨0, _⟩ => rfl)

theorem lhsThird (p : Fin 50000) (k : Fin 128) (j : Fin 128) : lidx_main_v36 (ix2 p k) j = ix2 p j :=
  funext fun a => Fin.ext (by match a with | ⟨0, _⟩ => rfl | ⟨1, _⟩ => rfl)

theorem rhsThird (p : Fin 50000) (k : Fin 128) (j : Fin 128) : ridx_main_v36 (ix2 p k) j = ix2 j k :=
  funext fun a => Fin.ext (by match a with | ⟨0, _⟩ => rfl | ⟨1, _⟩ => rfl)

theorem biasThird (p : Fin 50000) (k : Fin 128) : idx_main_v37 (idx_main_v38 (ix2 p k)) = ix1 k :=
  funext fun a => Fin.ext (by match a with | ⟨0, _⟩ => rfl)

theorem lhsFourth (p : Fin 50000) (n : Fin 64) (k : Fin 128) : lidx_main_v41 (ix2 p n) k = ix2 p k :=
  funext fun a => Fin.ext (by match a with | ⟨0, _⟩ => rfl | ⟨1, _⟩ => rfl)

theorem rhsFourth (p : Fin 50000) (n : Fin 64) (k : Fin 128) : ridx_main_v41 (ix2 p n) k = ix2 k n :=
  funext fun a => Fin.ext (by match a with | ⟨0, _⟩ => rfl | ⟨1, _⟩ => rfl)

theorem biasFourth (p : Fin 50000) (n : Fin 64) : idx_main_v42 (idx_main_v43 (ix2 p n)) = ix1 n :=
  funext fun a => Fin.ext (by match a with | ⟨0, _⟩ => rfl)

/-! ## The first layer -/

/-- The reference's first layer is the rectified layer of the features and their neighbour sums. -/
theorem first_layer (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v24 (F := Ideal) x0 x1 x2 x3 x4 x5
      = GinLayer.rect (N := 50000) (din := 64) (dhid := 128) (dout := 128) x0 (val_main_v13 (F := Ideal) x0 x1) x2 x3 x4 x5 := by
  funext i
  obtain ⟨p, n, rfl⟩ : ∃ (p : Fin 50000) (n : Fin 128), i = ix2 p n := ⟨i 0, i 1, eq_ix2 i⟩
  simp only [val_main_v24_apply, val_main_v23_apply, val_main_v20_apply, val_main_v22_apply, val_main_v21_apply,
    val_main_call1_v0_apply, val_main_call1_cst_apply, val_main_v19_apply, val_main_v18_apply, val_main_v15_apply,
    val_main_v17_apply, val_main_v16_apply, val_main_call0_v0_apply, val_main_call0_cst_apply, val_main_v14_apply,
    lhsFirst, rhsFirst, biasFirst, lhsSecond, rhsSecond, biasSecond]
  rfl

/-! ## The second layer -/

/-- The neighbour sums of a [50000, 128] array: its rows gathered at the edges' sources and scatter-added, from
    zero, at the edges' targets. Carried whole. -/
def nbrSum128 (h : (⟨S50000x128, .f32⟩ : BufTy).Contents (Elt Ideal)) (x1 : (⟨S2x800000, .i32⟩ : BufTy).Contents (Elt Ideal)) :
    (⟨S50000x128, .f32⟩ : BufTy).Contents (Elt Ideal) :=
  Host.scatterAdd (F := Ideal) (φ := .f32) scatter_S50000x128_S800000x1_S800000x128_1_0_0_1 (val_main_v32 (F := Ideal)) (val_main_v33 (F := Ideal) x1)
    (Host.gather (α := Ideal .f32) gather_S50000x128_S800000x1_S800000x128_1_0_n_n_0_1_1128 h (val_main_v30 (F := Ideal) x1))

/-- The reference takes those sums of its first layer's output. -/
theorem second_sums (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v34 (F := Ideal) x0 x1 x2 x3 x4 x5 = nbrSum128 (val_main_v24 (F := Ideal) x0 x1 x2 x3 x4 x5) x1 := rfl

/-- The reference's result is the second layer of its first layer's output and that output's neighbour sums. -/
theorem second_layer (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal)) :
    val_main_v44 (F := Ideal) x0 x1 x2 x3 x4 x5 x6 x7 x8 x9
      = GinLayer.lin (N := 50000) (din := 128) (dhid := 128) (dout := 64) (val_main_v24 (F := Ideal) x0 x1 x2 x3 x4 x5)
          (val_main_v34 (F := Ideal) x0 x1 x2 x3 x4 x5) x6 x7 x8 x9 := by
  funext i
  obtain ⟨p, n, rfl⟩ : ∃ (p : Fin 50000) (n : Fin 64), i = ix2 p n := ⟨i 0, i 1, eq_ix2 i⟩
  simp only [val_main_v44_apply, val_main_v41_apply, val_main_v43_apply, val_main_v42_apply, val_main_v40_apply,
    val_main_v39_apply, val_main_v36_apply, val_main_v38_apply, val_main_v37_apply, val_main_call2_v0_apply,
    val_main_call2_cst_apply, val_main_v35_apply, lhsThird, rhsThird, biasThird, lhsFourth, rhsFourth, biasFourth]
  rfl

end Cert.ReferenceIdeal.GinValue

end
-- ==== Proof.KernelRun.lean ====
/-
  The kernel program's run with its result named, and the result as a function of the argument arrays.

  The program is four stretches: host operations that take the neighbour sums of the features; the first layer's
  kernel over ten row blocks; host operations that take the neighbour sums of the first layer's output; the second
  layer's kernel over ten row blocks. Reading the result buffer back through them: the second kernel leaves the
  second layer of what it found; it found the first kernel's output, untouched by the host operations between,
  and that output's neighbour sums; the first kernel left the first layer of the features and their neighbour
  sums; the parameters are never written. The edge lists both neighbour sums use are the same two slices of the
  edge array, computed once before the first kernel and not written again.
-/
import proofs.«128245_j71725953843763_1_alg».proof.Proof.Gen.KernelIdeal.Frame
import proofs.«128245_j71725953843763_1_alg».proof.Proof.Blocks0
import proofs.«128245_j71725953843763_1_alg».proof.Proof.Blocks1
import proofs.«128245_j71725953843763_1_alg».proof.Proof.RefValue
import Idealize.ShloMosaic.Lib.StableHlo.Run

set_option maxRecDepth 16384

noncomputable section

namespace Cert.KernelIdeal.GinValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen

/-! ## The run, with the result buffer named -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, without a fault, with the result buffer at the contents the last
    stretch leaves in it and the argument arrays as launched. -/
theorem run_named : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Run

/-! ## The result buffer's contents, read back to the arguments -/

section Value

variable (m : (ℓ : Loc nD τ sig) → Buf (Elt Ideal) ℓ) (ρ : Dev nD → PrngReg)

/-- Before the first kernel: the neighbour sums of the features, as the reference spells them. -/
theorem entry0_sums (c : Dev nD) :
    V1 m ρ c main_v13 = Cert.ReferenceIdeal.Read.val_main_v13 (F := Ideal)
      (m ((c : Thread nD τ).loc main_arg0)) (m ((c : Thread nD τ).loc main_arg1)) := by
  show StableHlo.after hostOps0 (W0 m ρ c) (Proc.devRef .tc main_v13) = _
  dsimp only [hostOps0]
  after_results
  rfl

/-- The first stretch of host operations writes no argument array. -/
theorem entry0_arg (c : Dev nD) :
    V1 m ρ c main_arg0 = m ((c : Thread nD τ).loc main_arg0) ∧ V1 m ρ c main_arg2 = m ((c : Thread nD τ).loc main_arg2)
    ∧ V1 m ρ c main_arg3 = m ((c : Thread nD τ).loc main_arg3) ∧ V1 m ρ c main_arg4 = m ((c : Thread nD τ).loc main_arg4)
    ∧ V1 m ρ c main_arg5 = m ((c : Thread nD τ).loc main_arg5) := by
  refine ⟨?_, ?_, ?_, ?_, ?_⟩
  all_goals
    show StableHlo.after hostOps0 (W0 m ρ c) (Proc.devRef .tc _) = _
    dsimp only [hostOps0]
    after_results

/-- The source list, as the reference spells it, is still in its buffer after the first kernel. -/
theorem exit0_src (c : Dev nD) :
    W2 m ρ c (Proc.devRef .tc main_v1) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  dsimp only [hostOps0]
  after_results
  rfl

/-- The target list, as the reference spells it, is still in its buffer after the first kernel. -/
theorem exit0_dst (c : Dev nD) :
    W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  dsimp only [hostOps0]
  after_results
  rfl

/-- The first layer's output, as a function of the arguments. -/
abbrev firstOut (c : Dev nD) : FVec Ideal S50000x128 .f32 :=
  GinLayer.rect (N := 50000) (din := 64) (dhid := 128) (dout := 128) (m ((c : Thread nD τ).loc main_arg0))
    (Cert.ReferenceIdeal.Read.val_main_v13 (F := Ideal) (m ((c : Thread nD τ).loc main_arg0)) (m ((c : Thread nD τ).loc main_arg1)))
    (m ((c : Thread nD τ).loc main_arg2)) (m ((c : Thread nD τ).loc main_arg3)) (m ((c : Thread nD τ).loc main_arg4))
    (m ((c : Thread nD τ).loc main_arg5))

/-- After the first kernel its output buffer holds the first layer of the arguments. -/
theorem exit0_out (c : Dev nD) : W2 m ρ c (Proc.devRef .tc main_v14) = firstOut m c := by
  refine (W2_arr m ρ c 6).trans ((final0 (V1 m ρ) c).trans ?_)
  obtain ⟨h0, h2, h3, h4, h5⟩ := entry0_arg m ρ c
  unfold layer0 firstOut
  rw [h0, h2, h3, h4, h5, entry0_sums m ρ c]

/-- The second stretch of host operations leaves the first kernel's output where it is. -/
theorem entry1_out (c : Dev nD) : V3 m ρ c main_v14 = firstOut m c := by
  refine Eq.trans ?_ (exit0_out m ρ c)
  show StableHlo.after hostOps1 (W2 m ρ c) (Proc.devRef .tc main_v14) = _
  dsimp only [hostOps1]
  after_results

/-- Before the second kernel: the neighbour sums of the first layer's output. -/
theorem entry1_sums (c : Dev nD) :
    V3 m ρ c main_v24 = Cert.ReferenceIdeal.GinValue.nbrSum128 (firstOut m c) (m ((c : Thread nD τ).loc main_arg1)) := by
  show StableHlo.after hostOps1 (W2 m ρ c) (Proc.devRef .tc main_v24) = _
  dsimp only [hostOps1]
  after_results
  rw [exit0_out m ρ c, exit0_src m ρ c, exit0_dst m ρ c]
  rfl

/-- The second layer's parameters are as launched when the second kernel finds them. -/
theorem entry1_arg (c : Dev nD) :
    V3 m ρ c main_arg6 = m ((c : Thread nD τ).loc main_arg6) ∧ V3 m ρ c main_arg7 = m ((c : Thread nD τ).loc main_arg7)
    ∧ V3 m ρ c main_arg8 = m ((c : Thread nD τ).loc main_arg8) ∧ V3 m ρ c main_arg9 = m ((c : Thread nD τ).loc main_arg9) :=
  ⟨(((W4_arr m ρ c 2).trans (((dat1 (V3 m ρ) c).arrAt_in 2 rfl _).trans (A_eq1 (V3 m ρ) c 2))).symm).trans (W4_main_arg6 m ρ c),
   (((W4_arr m ρ c 3).trans (((dat1 (V3 m ρ) c).arrAt_in 3 rfl _).trans (A_eq1 (V3 m ρ) c 3))).symm).trans (W4_main_arg7 m ρ c),
   (((W4_arr m ρ c 4).trans (((dat1 (V3 m ρ) c).arrAt_in 4 rfl _).trans (A_eq1 (V3 m ρ) c 4))).symm).trans (W4_main_arg8 m ρ c),
   (((W4_arr m ρ c 5).trans (((dat1 (V3 m ρ) c).arrAt_in 5 rfl _).trans (A_eq1 (V3 m ρ) c 5))).symm).trans (W4_main_arg9 m ρ c)⟩

/-- The network's result, as a function of the arguments: the second layer of the first layer's output and that
    output's neighbour sums. -/
abbrev result (c : Dev nD) : FVec Ideal S50000x64 .f32 :=
  GinLayer.lin (N := 50000) (din := 128) (dhid := 128) (dout := 64) (firstOut m c)
    (Cert.ReferenceIdeal.GinValue.nbrSum128 (firstOut m c) (m ((c : Thread nD τ).loc main_arg1)))
    (m ((c : Thread nD τ).loc main_arg6)) (m ((c : Thread nD τ).loc main_arg7)) (m ((c : Thread nD τ).loc main_arg8))
    (m ((c : Thread nD τ).loc main_arg9))

/-- After the last stretch the result buffer holds the network's result. -/
theorem exit1_out (c : Dev nD) : W4 m ρ c (Proc.devRef .tc main_v25) = result m c := by
  refine (W4_arr m ρ c 6).trans ((final1 (V3 m ρ) c).trans ?_)
  obtain ⟨h6, h7, h8, h9⟩ := entry1_arg m ρ c
  unfold layer1 result
  rw [h6, h7, h8, h9, entry1_out m ρ c, entry1_sums m ρ c]

/-- The kernel program's run: the result buffer ends at the network's result, the arguments unchanged. -/
theorem run : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (exit1_out m ρ c), (h c).2⟩) (run_named m ρ)

end Value

end Cert.KernelIdeal.GinValue

end
-- ==== Proof.lean ====
/-
  A two-layer graph-isomorphism network computed by two row-blocked kernels, against the same network computed on
  whole arrays: equal results on the extended reals.

  Both programs take the node features x [50000, 64], an edge array [2, 800000] and four affine maps. Both form the
  neighbour sums of an array the same way — gather its rows at the edges' sources (a negative source wrapped by
  50000), scatter-add them from zero at the edges' targets — and that aggregation is carried here as one function
  of the array, never opened: whatever the edge array holds, the two programs apply the same function.

      h   = max (max ((x + sums x) · W₁ + b₁) 0 · W₂ + b₂) 0          [50000, 128]
      out =      max ((h + sums h) · W₃ + b₃) 0 · W₄ + b₄             [50000, 64]

  The kernels treat 5000 rows per grid point and cast the product's operands to bf16, which is the identity on the
  extended reals; the reference treats all rows at once. An output entry depends on its own row only, so the ten
  blocks a kernel writes back are the ten blocks of the whole-array layer, entry for entry, with the very same
  sums in the very same order. No algebraic law is needed, hence no finiteness of the inputs either: the claim's
  precondition is never opened.

  The three programs run to completion with their arguments unchanged: the two kernel programs by their frame
  certificates, the reference by its run. The idealized kernel program is the printed one read at exact
  arithmetic with nothing rewritten, so there is nothing to preserve.
-/
import proofs.«128245_j71725953843763_1_alg».proof.Defs
import proofs.«128245_j71725953843763_1_alg».proof.Proof.Gen.Kernel
import proofs.«128245_j71725953843763_1_alg».proof.Proof.Gen.Kernel.Frame
import proofs.«128245_j71725953843763_1_alg».proof.Proof.Gen.KernelIdeal
import proofs.«128245_j71725953843763_1_alg».proof.Proof.Gen.KernelIdeal.Frame
import proofs.«128245_j71725953843763_1_alg».proof.Proof.Gen.ReferenceIdeal
import proofs.«128245_j71725953843763_1_alg».proof.Proof.Gen.Pre_finite_inputs
import proofs.«128245_j71725953843763_1_alg».proof.Proof.Gen.ReferenceIdeal.Run
import proofs.«128245_j71725953843763_1_alg».proof.Proof.Gen.ReferenceIdeal.Read
import proofs.«128245_j71725953843763_1_alg».proof.Proof.KernelRun
import proofs.«128245_j71725953843763_1_alg».proof.Proof.RefValue
import Idealize.ShloMosaic.Adequacy
import Idealize.ShloMosaic.Init

noncomputable section

namespace Cert.Proof

open Idealize.ShloMosaic Idealize.SL.Sem

/-- The kernel program, word for word, runs and leaves its arguments as launched. -/
theorem frame_kernel : Cert.frame_Kernel := fun m ρ _ => Cert.Kernel.Gen.frame m ρ

/-- The kernel program at exact arithmetic runs and leaves its arguments as launched. -/
theorem frame_kernelIdeal : Cert.frame_KernelIdeal := fun m ρ _ => Cert.KernelIdeal.Gen.frame m ρ

/-- The reference at exact arithmetic runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the network's result: the kernel program's result buffer
    read back through its four stretches, the reference's composed term read stage by stage, are one function
    of the arguments. -/
theorem algebraic : Cert.algebraic_KernelIdeal_ReferenceIdeal := by
  intro m ρ m' ρ' _ hagree
  refine ⟨fun c => Cert.KernelIdeal.GinValue.result m c, Cert.KernelIdeal.GinValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v44_eq, Cert.ReferenceIdeal.GinValue.second_layer,
    Cert.ReferenceIdeal.GinValue.second_sums, Cert.ReferenceIdeal.GinValue.first_layer,
    h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
